-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  A linear layer whose weight is scalar-quantized row by row.

  For a row w of the weight, its scale is n = max(‖w‖₂, ε): the Euclidean norm of the row, kept away from zero by the
  floor ε.  Each entry is divided by the scale and multiplied by 60, rounded to the nearest integer (ties to even),
  clipped to the sixteen levels −8 … 7, and scaled back: q(w)_k = clip(round(w_k / n · 60)) · n / 60.  The layer's
  output at (p, q) is the inner product of row p of the input with the quantized row q of the weight, plus the bias at q.

  Everything is stated on the extended reals with the operations' exact meanings; the five constants (ε, 60, −8, 7 and
  the zero a sum starts from) are kept as the binary words that spell them.
-/
import Idealize.ShloMosaic.PureOps.Ideal
import Idealize.ShloMosaic.Lib.ValueIdx

noncomputable section

namespace Cert.QLinear

open Idealize.ShloMosaic Idealize.ShloMosaic.ValueIdx

/-- The floor ε of a row's scale. -/
abbrev cEps : EReal := Ideal.ofBits .f32 0x322BCC77#32
/-- The number of quantization steps per unit of scale, 60. -/
abbrev c60 : EReal := Ideal.ofBits .f32 0x42700000#32
/-- The lowest level, −8, and the highest, 7. -/
abbrev cLo : EReal := Ideal.ofBits .f32 0xC1000000#32
abbrev cHi : EReal := Ideal.ofBits .f32 0x40E00000#32

/-- The scale of a row: its Euclidean norm, or ε if that is larger. -/
def rowScale {K : ℕ} (row : Fin K → EReal) : EReal :=
  max (Ideal.sqrt (∑ l : Fin K, row l * row l)) cEps

/-- An entry w of a row of scale n, quantized: clip(round(w / n · 60)) · n / 60. -/
def quantEntry (w n : EReal) : EReal :=
  Ideal.div (min cHi (max cLo (Ideal.liftRound Ideal.roundHalfEven (Ideal.div w n * c60))) * n) c60

/-- Entry k of the quantized row. -/
def quantRow {K : ℕ} (row : Fin K → EReal) (k : Fin K) : EReal :=
  quantEntry (row k) (rowScale row)

/-- The weight [4096, 4096], the input [8192, 4096] and the bias [4096]. -/
abbrev SW : Shape := ⟨2, ![4096, 4096]⟩
abbrev SX : Shape := ⟨2, ![8192, 4096]⟩
abbrev SB : Shape := ⟨1, ![4096]⟩

/-- Entry (r, k) of the quantized weight: entry k of the quantized row r. -/
def Wq (w : SW.Idx → EReal) (r k : Fin 4096) : EReal :=
  quantRow (fun l => w (ix2 r l)) k

/-- The quantized weight as an array. -/
def WqArr (w : SW.Idx → EReal) : SW.Idx → EReal := fun i => Wq w (i 0) (i 1)

/-- Entry (p, q) of the layer's output: ⟨x_p, q(w)_q⟩ + b_q. -/
def outEntry (x : SX.Idx → EReal) (w : SW.Idx → EReal) (b : SB.Idx → EReal) (p : Fin 8192) (q : Fin 4096) : EReal :=
  (∑ k : Fin 4096, x (ix2 p k) * Wq w q k) + b (ix1 q)

/-- The layer's output as an array. -/
def out (x : SX.Idx → EReal) (w : SW.Idx → EReal) (b : SB.Idx → EReal) : SX.Idx → EReal :=
  fun i => outEntry x w b (i 0) (i 1)

theorem WqArr_apply (w : SW.Idx → EReal) (r k : Fin 4096) : WqArr w (ix2 r k) = Wq w r k := rfl

theorem out_apply (x : SX.Idx → EReal) (w : SW.Idx → EReal) (b : SB.Idx → EReal) (p : Fin 8192) (q : Fin 4096) :
    out x w b (ix2 p q) = outEntry x w b p q := rfl

end Cert.QLinear

end
-- ==== Proof.KRun.lean ====
/-
  The kernel program's run with its RESULT named.

  The program is two kernel regions with one stretch of host operations between them.  Every weakly fair execution
  terminates, and in the final memory the result buffer holds what the last boundary of the run holds there — the
  contents left by the second region's write-backs — while the three arguments are as launched.  The run is the
  library's theorem for a program of several regions over the generated segments (each region's proof data, the host
  stretch between them); the only thing stated here beyond the frame is that the final reading also looks at the result.
-/
import proofs.«109204_j27015344292269_2_alg».proof.Proof.Gen.KernelIdeal.Frame

set_option maxRecDepth 16384

noncomputable section

namespace Cert.QLinear.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the arguments as
    launched. -/
theorem run_value : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own, and no core is dealt a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      -- the first thread state, core by core: the unscoped buffers as launched, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      -- the last thread state holds every unscoped buffer at the last boundary's contents: read them all
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.QLinear.KRun

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«109204_j27015344292269_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.Pay0.lean ====
/-
  The first kernel's block of the quantized weight, entry by entry.

  At a grid point the body holds a block X of 256 whole rows of the weight.  For each row p it sums the squares of the
  row's 4096 entries, takes the square root and the larger of that and ε: the row's scale n_p, a column that it then
  spreads over the row.  Entry (p, k) of what it stores is clip(round(X(p, k) / n_p · 60)) · n_p / 60 — the entry k of
  the quantized row p; narrowing the result to a shorter float format changes nothing on the extended reals.
-/
import proofs.«109204_j27015344292269_2_alg».proof.Proof.Gen.KernelIdeal.Skeleton
import proofs.«109204_j27015344292269_2_alg».proof.Proof.Spec
import proofs.«109204_j27015344292269_2_alg».proof.Proof.LibRowSum
import proofs.«109204_j27015344292269_2_alg».proof.Proof.LibVecIx2
import Idealize.ShloMosaic.Lib.Pipeline.Value
import Idealize.ShloMosaic.Lib.ValueIdx

noncomputable section

namespace Cert.QLinear.Pay

open Idealize.ShloMosaic Idealize.ShloMosaic.ValueIdx Cert.KernelIdeal Cert.KernelIdeal.Gen

/-- The scale column spread over the block, read at (p, k): the scale of row p, whatever the column k. -/
theorem scale_apply (x0 : FVec Ideal S256x4096 .f32) (p : Fin 256) (k : Fin 4096) :
    broadcastTo S256x4096
        (maximumf
          (sqrt (shapeCast S256x1
            (multiReduction .add [1] S256 (mulf x0 x0) 0x00000000#32 reduces_S256x4096_S256 (.inl rfl) rfl)
            shapeCasts_S256_S256x1))
          (broadcast S256x1 (Scalar.ofBits (F := Ideal) .f32 0x322BCC77#32)))
        broadcasts_S256x1_S256x4096 (ix2 p k)
      = Cert.QLinear.rowScale (fun l => x0 (ix2 p l)) := by
  refine (Cert.Lib.VecIx2.bcast_col _ _ p k).trans ?_
  unfold Cert.QLinear.rowScale
  refine congrArg (fun s => max (Ideal.sqrt s) Cert.QLinear.cEps) ?_
  exact Cert.Lib.RowSum.rowsum_column (mulf x0 x0) reduces_S256x4096_S256 (.inl rfl) rfl shapeCasts_S256_S256x1 p 0

/-- The entrywise part of the body, for any scale array S: divide by the scale, multiply by 60, round, clip, scale
    back. -/
theorem quant_pointwise (x0 S : FVec Ideal S256x4096 .f32) (i : S256x4096.Idx) :
    (truncf .bf16
      (divf
        (mulf
          (minimumf (broadcast S256x4096 (Scalar.ofBits (F := Ideal) .f32 0x40E00000#32))
            (maximumf (broadcast S256x4096 (Scalar.ofBits (F := Ideal) .f32 0xC1000000#32))
              (roundeven (mulf (divf x0 S) (broadcast S256x4096 (Scalar.ofBits (F := Ideal) .f32 0x42700000#32))))))
          S)
        (broadcast S256x4096 (Scalar.ofBits (F := Ideal) .f32 0x42700000#32)))
      bitsLt_bf16_f32 : FVec Ideal S256x4096 .bf16) i
      = Cert.QLinear.quantEntry (x0 i) (S i) := rfl

/-- Entry (p, k) of the stored block is entry k of the quantized row p of the loaded block. -/
theorem pay0_apply (x0 : Vec Ideal S256x4096 .f32) (p : Fin 256) (k : Fin 4096) :
    k0_pay1 (F := Ideal) x0 (ix2 p k) = Cert.QLinear.quantRow (fun l => x0 (ix2 p l)) k := by
  unfold k0_pay1 Cert.QLinear.quantRow
  exact (quant_pointwise x0 _ (ix2 p k)).trans (congrArg (Cert.QLinear.quantEntry (x0 (ix2 p k))) (scale_apply x0 p k))

end Cert.QLinear.Pay

end
-- ==== Proof.Arr0.lean ====
/-
  The first kernel's output array: the quantized weight.

  The grid has sixteen points.  Point t stages rows 256·t … 256·t + 255 of the weight (all 4096 columns), quantizes
  each of those rows by the row's own scale, and writes the 256 quantized rows back to the same rows of the output.
  A row of the weight lies wholly inside one block, so the scale a block computes for its row p is the scale of row
  256·t + p of the whole array, and what point t writes back is block t of the quantized weight.  The sixteen blocks
  cover the 4096 rows (row r is in block r / 256), so the output array ends holding the quantized weight.
-/
import proofs.«109204_j27015344292269_2_alg».proof.Proof.Gen.KernelIdeal.Frame
import Idealize.ShloMosaic.Lib.Pipeline.Value
import proofs.«109204_j27015344292269_2_alg».proof.Proof.Spec
import proofs.«109204_j27015344292269_2_alg».proof.Proof.Pay0

noncomputable section

namespace Cert.QLinear.Arr0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's one load and one store start at the origin of the block. -/
theorem origin : (![0, 0] : Fin 2 → Nat) = fun _ => 0 := funext fun a => by fin_cases a <;> rfl

/-- The two index maps, decided over the sixteen points: the input block and the output block of a point have the
    same block row, both span all columns (block column 0), and the block row is at most 15. -/
theorem index_maps : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every one of the sixteen block rows is some point's. -/
theorem index_onto : ∀ q : Fin 16, ∃ t : Fin cfg0.N, win0_1.index t = ![q.val, 0] :=
  (by decide +kernel : ∀ q : Fin 16, ∃ t : Fin grid0.N, win0_1.index t = ![q.val, 0])

/-- Entry y of the weight's block at point t is the weight's entry i, when i sits at row 256 · (block row) + y₀ and
    column y₁: a block's coordinate is its block index times the block's extent plus the coordinate inside it. -/
theorem block_read (c : Dev nD) (t : Fin cfg0.N) (y : S256x4096.Idx) (i : S4096x4096.Idx)
    (h0 : (i 0).val = win0_1.index t (0 : Fin 2) * 256 + (y 0).val) (h1 : (i 1).val = (y 1).val) :
    iblk0 V c 0 t y = V c main_arg1 i := by
  obtain ⟨e0, e1, e2, e3⟩ := index_maps t
  show V c main_arg1 (((cfg0.win 0).blk t).view.emb y) = V c main_arg1 i
  refine congrArg _ ?_
  funext a; apply Fin.ext
  match a with
  | ⟨0, _⟩ => show win0_0.index t (0 : Fin 2) * 256 + 1 * (y 0).val = (i 0).val; omega
  | ⟨1, _⟩ => show win0_0.index t (1 : Fin 2) * 4096 + 1 * (y 1).val = (i 1).val; omega

/-- A row of a block that agrees, entry by entry, with row i₀ of the weight quantizes to the same entries: the scale
    of a row is a function of that row alone. -/
theorem quantRow_of_row (x0 : Vec Ideal S256x4096 .f32) (w : SW.Idx → EReal) (p : Fin 256) (k : Fin 4096) (i : SW.Idx)
    (hrow : ∀ l : Fin 4096, x0 (ix2 p l) = w (ix2 (i 0) l)) (hk : k = i 1) :
    quantRow (fun l => x0 (ix2 p l)) k = WqArr w i := by
  subst hk
  show _ = quantRow (fun l => w (ix2 (i 0) l)) (i 1)
  exact congrArg (quantRow · (i 1)) (funext hrow)

/-- What point t writes back is block t of the quantized weight. -/
theorem flushed (c : Dev nD) (t : Fin cfg0.N) :
    (dat0 V c).flushed 1 t = ((cfg0.win 1).blk t).view.read (Elt Ideal) (WqArr (V c main_arg1)) := by
  show (cfg0.win 1).cut (grid0.coords t) ((dat0 V c).after 1 t) = _
  rw [after0_1]
  unfold out0_1
  rw [View.canon_unit_zero origin]
  simp only [View.ld_unit_zero (S := S256x4096) origin]
  obtain ⟨e0, e1, e2, e3⟩ := index_maps t
  funext j
  obtain ⟨p, k, rfl⟩ : ∃ (p : Fin 256) (k : Fin 4096), j = ix2 p k := ⟨j 0, j 1, eq_ix2 j⟩
  show k0_pay1 (F := Ideal) (iblk0 V c 0 t) (ix2 p k) = WqArr (V c main_arg1) (((cfg0.win 1).blk t).view.emb (ix2 p k))
  refine (Pay.pay0_apply (iblk0 V c 0 t) p k).trans ?_
  refine quantRow_of_row (iblk0 V c 0 t) (V c main_arg1) p k _ (fun l => block_read V c t (ix2 p l) _ ?_ ?_) ?_
  · show win0_1.index t (0 : Fin 2) * 256 + 1 * p.val = win0_1.index t (0 : Fin 2) * 256 + p.val; omega
  · rfl
  · apply Fin.ext
    show k.val = win0_1.index t (1 : Fin 2) * 4096 + 1 * k.val; omega

/-- An index of the output array is in point t's block iff each coordinate is in the block's range on its axis. -/
theorem mem_block (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every index of the output array is in some point's block: row r is in block r / 256, which spans all columns. -/
theorem covered (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := index_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- After the sixteen write-backs the output array holds the quantized weight. -/
theorem quantized (c : Dev nD) : (dat0 (F := Ideal) V c).arrAt 1 cfg0.N = Cert.QLinear.WqArr (V c main_arg1) :=
  (dat0 V c).arrAt_eq_of_cover 1 (WqArr (V c main_arg1)) (fun t _ => flushed V c t) covered

end Cert.QLinear.Arr0

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.Pay1.lean ====
/-
  The second kernel's block of the output, entry by entry.

  At a grid point the body holds a block A of 1024 rows of the input, a block B of 512 rows of the quantized weight
  (both with all 4096 columns) and the matching 512 entries c of the bias as a one-row matrix.  It multiplies A by the
  transpose of B into a zero accumulator and adds the bias row to every row: entry (p, q) of what it stores is
  Σ_k A(p, k) · B(q, k) + c(0, q).
-/
import proofs.«109204_j27015344292269_2_alg».proof.Proof.Gen.KernelIdeal.Skeleton
import proofs.«109204_j27015344292269_2_alg».proof.Proof.LibRowsDot
import Idealize.ShloMosaic.Lib.Pipeline.Value
import Idealize.ShloMosaic.Lib.ValueIdx
import Idealize.ShloMosaic.Lib.ValueLayout

noncomputable section

namespace Cert.QLinear.Pay

open Idealize.ShloMosaic Idealize.ShloMosaic.ValueIdx Cert.KernelIdeal Cert.KernelIdeal.Gen

/-- The printed dimension numbers contract both operands on their last axis: A · Bᵀ. -/
theorem dot_eq : dot_S1024x4096_S512x4096_S1024x512_1_1_0_0_n_n = DotDims.transposedRhs 1024 4096 512 := rfl

/-- Entry (p, q) of the stored block: the inner product of row p of A with row q of B, plus the bias at q. -/
theorem pay1_apply (x0 : Vec Ideal S1024x4096 .bf16) (x1 : Vec Ideal S512x4096 .bf16) (x2 : Vec Ideal S1x512 .f32)
    (p : Fin 1024) (q : Fin 512) :
    k1_pay1 (F := Ideal) x0 x1 x2 (ix2 p q)
      = (∑ k : Fin 4096, x0 (ix2 p k) * x1 (ix2 q k)) + x2 (ix2 (0 : Fin 1) q) := by
  unfold k1_pay1
  refine (addf_apply _ _ (ix2 p q)).trans ?_
  refine congrArg₂ (· + ·) ?_ ?_
  · rw [shapeCast_self, shapeCast_self, dot_eq]
    exact Cert.Lib.RowsDot.matmul_zero_apply x0 x1 p q
  · rw [shapeCast_self, shapeCast_self]
    exact broadcastTo_1b_ab_apply x2 _ p q

end Cert.QLinear.Pay

end
-- ==== Proof.Arr1.lean ====
/-
  The second kernel's output array: the input times the transposed stored weight, plus the bias.

  The grid has 8 × 8 points.  Point (a, b) stages rows 1024·a … 1024·a + 1023 of the input, rows 512·b … 512·b + 511
  of the stored weight (both with all 4096 columns) and entries 512·b … 512·b + 511 of the bias row, and writes back
  the 1024 × 512 block (a, b) of the output: entry (p, q) of that block is the inner product of row p of the input
  block with row q of the weight block, plus entry q of the bias block.  Those are row 1024·a + p of the input, row
  512·b + q of the weight and entry 512·b + q of the bias, so what the point writes back is block (a, b) of the array
  whose entry (r, s) is ⟨x_r, w_s⟩ + bias_s.  The 64 blocks cover the output (entry (r, s) is in block
  (r / 1024, s / 512)), so the output array ends holding that array.
-/
import proofs.«109204_j27015344292269_2_alg».proof.Proof.Gen.KernelIdeal.Frame
import Idealize.ShloMosaic.Lib.Pipeline.Value
import proofs.«109204_j27015344292269_2_alg».proof.Proof.Spec
import proofs.«109204_j27015344292269_2_alg».proof.Proof.Pay1

noncomputable section

namespace Cert.QLinear.Arr1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its one store start at the origin of their blocks. -/
theorem origin : (![0, 0] : Fin 2 → Nat) = fun _ => 0 := funext fun a => by fin_cases a <;> rfl

/-- Rows of X against rows of W, plus a bias row: entry i is Σ_k X(i₀, k) · W(i₁, k) + B(0, i₁). -/
def rowsProduct (X : Cert.KernelIdeal.S8192x4096.Idx → EReal) (W : Cert.KernelIdeal.S4096x4096.Idx → EReal)
    (B : Cert.KernelIdeal.S1x4096.Idx → EReal) : Cert.KernelIdeal.S8192x4096.Idx → EReal :=
  fun i => (∑ k : Fin 4096, X (ValueIdx.ix2 (i 0) k) * W (ValueIdx.ix2 (i 1) k)) + B (ValueIdx.ix2 (0 : Fin 1) (i 1))

/-- The four index maps, decided over the 64 points: the input's block row is the output's block row, the weight's
    block row and the bias's block column are the output's block column, every other block index is 0, and the
    output's block indices are at most 7. -/
theorem index_maps : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every one of the 8 × 8 output blocks is some point's. -/
theorem index_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- Entry y of the input's block at point t is the input's entry i, when i sits at row 1024 · (output block row) + y₀
    and column y₁. -/
theorem input_read (c : Dev nD) (t : Fin cfg1.N) (y : S1024x4096.Idx) (i : S8192x4096.Idx)
    (h0 : (i 0).val = win1_3.index t (0 : Fin 2) * 1024 + (y 0).val) (h1 : (i 1).val = (y 1).val) :
    iblk1 V c 0 t y = V c main_v1 i := by
  obtain ⟨e0, e1, e2, e3, e4, e5, e6, e7⟩ := index_maps t
  show V c main_v1 (((cfg1.win 0).blk t).view.emb y) = V c main_v1 i
  refine congrArg _ ?_
  funext a; apply Fin.ext
  match a with
  | ⟨0, _⟩ => show win1_0.index t (0 : Fin 2) * 1024 + 1 * (y 0).val = (i 0).val; omega
  | ⟨1, _⟩ => show win1_0.index t (1 : Fin 2) * 4096 + 1 * (y 1).val = (i 1).val; omega

/-- Entry y of the weight's block at point t is the weight's entry i, when i sits at row 512 · (output block
    column) + y₀ and column y₁. -/
theorem weight_read (c : Dev nD) (t : Fin cfg1.N) (y : S512x4096.Idx) (i : S4096x4096.Idx)
    (h0 : (i 0).val = win1_3.index t (1 : Fin 2) * 512 + (y 0).val) (h1 : (i 1).val = (y 1).val) :
    iblk1 V c 1 t y = V c main_v0 i := by
  obtain ⟨e0, e1, e2, e3, e4, e5, e6, e7⟩ := index_maps t
  show V c main_v0 (((cfg1.win 1).blk t).view.emb y) = V c main_v0 i
  refine congrArg _ ?_
  funext a; apply Fin.ext
  match a with
  | ⟨0, _⟩ => show win1_1.index t (0 : Fin 2) * 512 + 1 * (y 0).val = (i 0).val; omega
  | ⟨1, _⟩ => show win1_1.index t (1 : Fin 2) * 4096 + 1 * (y 1).val = (i 1).val; omega

/-- Entry y of the bias row's block at point t is the bias row's entry i, when i sits at row y₀ (the only one) and
    column 512 · (output block column) + y₁. -/
theorem bias_read (c : Dev nD) (t : Fin cfg1.N) (y : S1x512.Idx) (i : S1x4096.Idx)
    (h0 : (i 0).val = (y 0).val) (h1 : (i 1).val = win1_3.index t (1 : Fin 2) * 512 + (y 1).val) :
    iblk1 V c 2 t y = V c main_v2 i := by
  obtain ⟨e0, e1, e2, e3, e4, e5, e6, e7⟩ := index_maps t
  show V c main_v2 (((cfg1.win 2).blk t).view.emb y) = V c main_v2 i
  refine congrArg _ ?_
  funext a; apply Fin.ext
  match a with
  | ⟨0, _⟩ => show win1_2.index t (0 : Fin 2) * 1 + 1 * (y 0).val = (i 0).val; omega
  | ⟨1, _⟩ => show win1_2.index t (1 : Fin 2) * 512 + 1 * (y 1).val = (i 1).val; omega

/-- Blocks whose row p, row q and entry q agree with row i₀ of x, row i₁ of w and entry i₁ of b give, at (p, q), the
    entry i of the array of inner products plus bias. -/
theorem entry_of_rows (x0 : Vec Ideal S1024x4096 .bf16) (x1 : Vec Ideal S512x4096 .bf16) (x2 : Vec Ideal S1x512 .f32)
    (x : S8192x4096.Idx → EReal) (w : S4096x4096.Idx → EReal) (b : S1x4096.Idx → EReal)
    (p : Fin 1024) (q : Fin 512) (i : S8192x4096.Idx)
    (hx : ∀ k : Fin 4096, x0 (ix2 p k) = x (ix2 (i 0) k)) (hw : ∀ k : Fin 4096, x1 (ix2 q k) = w (ix2 (i 1) k))
    (hb : x2 (ix2 (0 : Fin 1) q) = b (ix2 (0 : Fin 1) (i 1))) :
    (∑ k : Fin 4096, x0 (ix2 p k) * x1 (ix2 q k)) + x2 (ix2 (0 : Fin 1) q) = rowsProduct x w b i := by
  show _ = (∑ k : Fin 4096, x (ix2 (i 0) k) * w (ix2 (i 1) k)) + b (ix2 (0 : Fin 1) (i 1))
  rw [hb]
  refine congrArg (· + _) ?_
  exact Finset.sum_congr rfl fun k _ => by rw [hx k, hw k]

/-- What point t writes back is block t of the array of inner products plus bias. -/
theorem flushed (c : Dev nD) (t : Fin cfg1.N) :
    (dat1 V c).flushed 3 t
      = ((cfg1.win 3).blk t).view.read (Elt Ideal) (rowsProduct (V c main_v1) (V c main_v0) (V c main_v2)) := by
  show (cfg1.win 3).cut (grid1.coords t) ((dat1 V c).after 3 t) = _
  rw [after1_3]
  unfold out1_3
  rw [View.canon_unit_zero origin]
  simp only [View.ld_unit_zero (S := S1024x4096) origin, View.ld_unit_zero (S := S512x4096) origin,
    View.ld_unit_zero (S := S1x512) origin]
  funext j
  obtain ⟨p, q, rfl⟩ : ∃ (p : Fin 1024) (q : Fin 512), j = ix2 p q := ⟨j 0, j 1, eq_ix2 j⟩
  show k1_pay1 (F := Ideal) (iblk1 V c 0 t) (iblk1 V c 1 t) (iblk1 V c 2 t) (ix2 p q)
    = rowsProduct (V c main_v1) (V c main_v0) (V c main_v2) (((cfg1.win 3).blk t).view.emb (ix2 p q))
  refine (Pay.pay1_apply (iblk1 V c 0 t) (iblk1 V c 1 t) (iblk1 V c 2 t) p q).trans ?_
  refine entry_of_rows (iblk1 V c 0 t) (iblk1 V c 1 t) (iblk1 V c 2 t) (V c main_v1) (V c main_v0) (V c main_v2) p q _
    (fun k => input_read V c t (ix2 p k) _ ?_ ?_) (fun k => weight_read V c t (ix2 q k) _ ?_ ?_)
    (bias_read V c t (ix2 (0 : Fin 1) q) _ ?_ ?_)
  · show win1_3.index t (0 : Fin 2) * 1024 + 1 * p.val = win1_3.index t (0 : Fin 2) * 1024 + p.val; omega
  · rfl
  · show win1_3.index t (1 : Fin 2) * 512 + 1 * q.val = win1_3.index t (1 : Fin 2) * 512 + q.val; omega
  · rfl
  · rfl
  · show win1_3.index t (1 : Fin 2) * 512 + 1 * q.val = win1_3.index t (1 : Fin 2) * 512 + q.val; omega

/-- An index of the output array is in point t's block iff each coordinate is in the block's range on its axis. -/
theorem mem_block (t : Fin cfg1.N) (i : S8192x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

/-- Every index of the output array is in some point's block: entry (r, s) is in block (r / 1024, s / 512). -/
theorem covered (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- After the 64 write-backs the output array holds, at (r, s), the inner product of row r of the input with row s of
    the stored weight, plus entry s of the bias row. -/
theorem product (c : Dev nD) :
    (dat1 (F := Ideal) V c).arrAt 3 cfg1.N = rowsProduct (V c main_v1) (V c main_v0) (V c main_v2) :=
  (dat1 V c).arrAt_eq_of_cover 3 (rowsProduct (V c main_v1) (V c main_v0) (V c main_v2)) (fun t _ => flushed V c t) covered

end Cert.QLinear.Arr1

end
-- ==== Proof.KValue.lean ====
/-
  What the kernel program's result buffer holds at the end, as one function of the three arguments.

  The second region finds in its three input arrays: the input itself (the host's cast to a shorter float format
  changes nothing on the extended reals), the quantized weight (what the first region's write-backs left, untouched by
  the host operations in between), and the bias stood up as a one-row matrix.  Its write-backs leave, at (p, q), the
  inner product of row p of the first with row q of the second plus entry (0, q) of the third: the layer's output.
-/
import proofs.«109204_j27015344292269_2_alg».proof.Proof.Gen.KernelIdeal.Frame
import proofs.«109204_j27015344292269_2_alg».proof.Proof.Spec
import proofs.«109204_j27015344292269_2_alg».proof.Proof.Arr0
import proofs.«109204_j27015344292269_2_alg».proof.Proof.Arr1
import Idealize.ShloMosaic.Lib.StableHlo.Run
import Idealize.ShloMosaic.Lib.ValueLayout
import Idealize.ShloMosaic.Lib.ValueIdx

set_option maxRecDepth 16384

noncomputable section

namespace Cert.QLinear.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The second region's first array is the input as launched: the host's change of format is the identity here, and
    the first region does not touch the input. -/
theorem entry1_x (c : Dev nD) :
    (V2 m ρ c main_v1 : S8192x4096.Idx → EReal) = m ((c : Thread nD τ).loc main_arg0) := by
  show StableHlo.after hostOps1 (W1 m ρ c) (Proc.devRef .tc main_v1) = _
  after_results
  rw [W1_of_ne m ρ c main_arg0 (by decide)]
  rfl

/-- Its third array is the bias as launched, reshaped to one row. -/
theorem entry1_b (c : Dev nD) :
    (V2 m ρ c main_v2 : S1x4096.Idx → EReal)
      = shapeCast S1x4096 (m ((c : Thread nD τ).loc main_arg2)) shapeCasts_S4096_S1x4096 := by
  show StableHlo.after hostOps1 (W1 m ρ c) (Proc.devRef .tc main_v2) = _
  after_results
  rw [W1_of_ne m ρ c main_arg2 (by decide)]
  rfl

/-- Its second array is what the first region's write-backs left: no host operation in between writes it. -/
theorem entry1_w (c : Dev nD) :
    V2 m ρ c main_v0 = (dat0 (V0 m ρ) c).arrAt 1 cfg0.N := by
  show StableHlo.after hostOps1 (W1 m ρ c) (Proc.devRef .tc main_v0) = _
  after_results
  exact W1_arr m ρ c 1

/-- The result buffer at the last boundary of the run is the layer's output of the arguments as launched. -/
theorem result_eq (c : Dev nD) :
    W3 m ρ c (Proc.devRef .tc main_v3)
      = Cert.QLinear.out (m ((c : Thread nD τ).loc main_arg0)) (m ((c : Thread nD τ).loc main_arg1))
          (m ((c : Thread nD τ).loc main_arg2)) := by
  refine (W3_arr m ρ c 3).trans ?_
  rw [Cert.QLinear.Arr1.product (V2 m ρ) c, entry1_x m ρ c, entry1_b m ρ c, entry1_w m ρ c,
    Cert.QLinear.Arr0.quantized (V0 m ρ) c]
  funext i
  unfold Cert.QLinear.Arr1.rowsProduct Cert.QLinear.out Cert.QLinear.outEntry
  refine congrArg₂ (· + ·) rfl ?_
  exact shapeCast_a_1a_apply _ _ 0 (i 1)

end Cert.QLinear.KValue

end
-- ==== Proof.RefValue.lean ====
/-
  The reference computes the specification.

  Row by row the reference takes the scale n = max(sqrt(0 + Σ_l w_l · w_l), ε), quantizes
  Q_k = min(7, max(−8, round(w_k / n · 60))) · n / 60 with −8 and 7 converted from integers, passes the quantized weight
  through the straight-through form w + (Q − w), and multiplies: (p, q) ↦ Σ_k x[p, k] · W'ᵀ[k, q] + b[q].

  Read entry by entry this is the specification's output, given three facts: the sum's initial word is zero; the two
  integers −8 and 7, converted, are the reals the words of the two clipping levels denote; and w + (Q − w) = Q whenever
  w is finite, whatever Q is (at Q = ±∞ both sides are that infinity; at a real Q it is the identity of the reals). The
  last is the only use of the weight's finiteness; no finiteness of Q, of the input or of the bias is needed.
-/
import proofs.«109204_j27015344292269_2_alg».proof.Proof.Gen.ReferenceIdeal.Read
import proofs.«109204_j27015344292269_2_alg».proof.Proof.Spec

noncomputable section

namespace Cert.QLinear.Ref

open Cert.ReferenceIdeal Cert.ReferenceIdeal.Read Idealize.ShloMosaic Idealize.ShloMosaic.ValueIdx

/-! ## The two integer constants -/

/-- The integer −8, converted, is the real the lowest level's word denotes. -/
theorem lo_sitofp : FloatOps.sitofp (F := Ideal) .f32 (4294967288#32 : BitVec 32) = cLo := by
  show (((4294967288#32 : BitVec 32).toInt : ℝ) : EReal) = Ideal.ofBits .f32 0xC1000000#32
  have h : (4294967288#32 : BitVec 32).toInt = -8 := by decide
  rw [h]
  simp [Ideal.ofBits, Ideal.ieee, -EReal.coe_mul]; norm_num

/-- The integer 7, converted, is the real the highest level's word denotes. -/
theorem hi_sitofp : FloatOps.sitofp (F := Ideal) .f32 (7#32 : BitVec 32) = cHi := by
  show (((7#32 : BitVec 32).toInt : ℝ) : EReal) = Ideal.ofBits .f32 0x40E00000#32
  have h : (7#32 : BitVec 32).toInt = 7 := by decide
  rw [h]
  simp [Ideal.ofBits, Ideal.ieee, -EReal.coe_mul]; norm_num

/-! ## Cancelling the straight-through difference -/

/-- For a finite w and any extended real Q, w + (Q − w) = Q. -/
theorem add_sub_cancel_real (r : ℝ) (Q : EReal) : (r : EReal) + (Q - (r : EReal)) = Q := by
  induction Q using EReal.rec with
  | bot => simp
  | coe s => rw [← EReal.coe_sub, ← EReal.coe_add]; congr 1; ring
  | top => simp

/-! ## The scale of a row -/

/-- The reference's scale at (r, ·) is the scale of row r. -/
theorem scale_eq (x1 : (⟨Cert.ReferenceIdeal.S4096x4096, .f32⟩ : BufTy).Contents (Elt Ideal)) (r : Fin 4096) (c : Fin 1) :
    val_main_v2 (F := Ideal) x1 (ix2 r c) = rowScale (fun l => x1 (ix2 r l)) := by
  rw [val_main_v2_apply, val_main_v0_apply, val_main_call0_v2_apply, val_main_call0_v1_apply, val_main_v1_apply,
    val_main_cst_apply, val_main_call0_cst_apply]
  simp only [Ideal.maximumf_def, Ideal.hostUnary_sqrt_def, Ideal.ofBits_def, Ideal.ofBits_zero_f32, zero_add,
    val_main_call0_v0_apply, Ideal.mulf_def]
  have hi : ∀ k : Fin 4096, idx_main_call0_v1 (idx_main_call0_v2 (ix2 r c)) k = ix2 r k := fun k =>
    funext fun a => Fin.ext (by match a with | ⟨0, _⟩ => rfl | ⟨1, _⟩ => rfl)
  simp only [hi]
  rfl

/-! ## The quantized weight -/

/-- The reference's quantized weight at (r, k) is entry k of the quantized row r. -/
theorem quant_eq (x1 : (⟨Cert.ReferenceIdeal.S4096x4096, .f32⟩ : BufTy).Contents (Elt Ideal)) (r k : Fin 4096) :
    val_main_v12 (F := Ideal) x1 (ix2 r k) = Wq x1 r k := by
  have h9 : idx_main_v9 (ix2 r k) = ix2 r (⟨0, Nat.one_pos⟩ : Fin 1) :=
    funext fun a => Fin.ext (by match a with | ⟨0, _⟩ => rfl | ⟨1, _⟩ => rfl)
  have h3 : idx_main_v3 (ix2 r k) = ix2 r (⟨0, Nat.one_pos⟩ : Fin 1) :=
    funext fun a => Fin.ext (by match a with | ⟨0, _⟩ => rfl | ⟨1, _⟩ => rfl)
  rw [val_main_v12_apply, val_main_v11_apply, val_main_cst_2_apply, val_main_v10_apply, val_main_v9_apply, h9, scale_eq,
    val_main_v8_apply, val_main_call2_v4_apply, val_main_call2_v3_apply, val_main_c_1_apply, hi_sitofp,
    val_main_call2_v2_apply, val_main_call2_v1_apply, val_main_call2_v0_apply, val_main_c_apply, lo_sitofp,
    val_main_v7_apply, val_main_v6_apply, val_main_v5_apply, val_main_cst_0_apply, val_main_v4_apply,
    val_main_v3_apply, h3, scale_eq]
  simp only [Ideal.hostDivf_def, Ideal.mulf_def, Ideal.minimumf_def, Ideal.maximumf_def, Ideal.hostUnary_roundeven_def,
    Ideal.ofBits_def]
  rfl

/-! ## The output -/

/-- The reference's output at (p, q) is the layer's output entry. -/
theorem ref_entry (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (hfin : ∀ i, ∃ r : ℝ, x1 i = (r : EReal)) (p : Fin 8192) (q : Fin 4096) :
    val_main_v19 (F := Ideal) x0 x1 x2 (ix2 p q) = outEntry x0 x1 x2 p q := by
  have hb : idx_main_v17 (idx_main_v18 (ix2 p q)) = ix1 q :=
    funext fun a => Fin.ext (by match a with | ⟨0, _⟩ => rfl)
  rw [val_main_v19_apply, val_main_v16_apply, val_main_v18_apply, val_main_v17_apply, hb, Ideal.addf_def]
  unfold outEntry
  refine congrArg (· + x2 (ix1 q)) (Finset.sum_congr rfl fun k _ => ?_)
  have hl : lidx_main_v16 (ix2 p q) k = ix2 p k :=
    funext fun a => Fin.ext (by match a with | ⟨0, _⟩ => rfl | ⟨1, _⟩ => rfl)
  have hr : idx_main_v15 (ridx_main_v16 (ix2 p q) k) = ix2 q k :=
    funext fun a => Fin.ext (by match a with | ⟨0, _⟩ => rfl | ⟨1, _⟩ => rfl)
  rw [hl, val_main_v15_apply, hr, val_main_v14_apply, val_main_v13_apply, quant_eq, Ideal.addf_def, Ideal.subf_def]
  obtain ⟨w, hw⟩ := hfin (ix2 q k)
  rw [hw, add_sub_cancel_real]

/-- The reference's output is the layer's output, when every entry of the weight is finite. -/
theorem ref_eq (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (hfin : ∀ i, ∃ r : ℝ, x1 i = (r : EReal)) :
    Cert.ReferenceIdeal.Read.val_main_v19 (F := Ideal) x0 x1 x2 = Cert.QLinear.out x0 x1 x2 := by
  funext i
  obtain ⟨p, q, rfl⟩ : ∃ (p : Fin 8192) (q : Fin 4096), i = ix2 p q := ⟨i 0, i 1, eq_ix2 i⟩
  rw [out_apply]
  exact ref_entry x0 x1 x2 hfin p q

end Cert.QLinear.Ref

end
-- ==== Proof.Finite.lean ====
/-
  The weight is finite under the precondition.

  The precondition is the conjunction of three statements "every entry a of the array satisfies |a| < +∞", one per
  argument. Read at the extended reals, |a| is max a (−a), which is +∞ at both infinities; so the middle statement,
  at an entry of the weight, says that the entry is neither infinity, that is, the cast of a real number.
-/
import proofs.«109204_j27015344292269_2_alg».proof.Pre_finite_inputs
import proofs.«109204_j27015344292269_2_alg».proof.Proof.Gen.Pre_finite_inputs
import Idealize.ShloMosaic.Lib.ReduceAll
import Idealize.ShloMosaic.PureOps.Ideal
import Idealize.ShloMosaic.Lib.ValueIdx

noncomputable section

namespace Cert.QLinear.Finite

open Idealize.ShloMosaic Idealize.ShloMosaic.ValueIdx

/-- The scalar shape has one index. -/
instance : Subsingleton Cert.Pre_finite_inputs.S_.Idx := ⟨fun a b => funext fun d => d.elim0⟩

/-- The word of the positive infinity denotes the top element. -/
theorem inf_word : Ideal.ofBits .f32 0x7F800000#32 = ⊤ := by simp [Ideal.ofBits, Ideal.ieee]

/-- An extended real whose absolute value is below +∞ is the cast of a real. -/
theorem real_of_abs_lt_top (w : EReal) (h : Ideal.cmp .olt (max w (-w)) ⊤ = 1#1) : ∃ r : ℝ, w = (r : EReal) := by
  induction w using EReal.rec with
  | bot => simp [Ideal.cmp] at h
  | coe r => exact ⟨r, rfl⟩
  | top => simp [Ideal.cmp] at h

/-- Under the precondition every entry of the weight is the cast of a real. -/
theorem weight_real [Cert.Pre_finite_inputs.Facts]
    (a0 : FVec Ideal Cert.Pre_finite_inputs.S8192x4096 .f32) (a1 : FVec Ideal Cert.Pre_finite_inputs.S4096x4096 .f32)
    (a2 : FVec Ideal Cert.Pre_finite_inputs.S4096 .f32)
    (h : Cert.Pre_finite_inputs.fn (F := Ideal) a0 a1 a2 = fun _ => 1#1) :
    ∀ i, ∃ r : ℝ, a1 i = (r : EReal) := by
  intro i
  -- the precondition at its one index: a conjunction of three reductions by "and"
  have e := congrFun h ValueIdx.ix0
  dsimp only [Cert.Pre_finite_inputs.fn] at e
  change IntOp.andi (IntOp.andi _ _) _ = 1#1 at e
  obtain ⟨⟨-, e1⟩, -⟩ := (IntOp.andi_eq_one.1 e).imp_left IntOp.andi_eq_one.1
  -- the middle one, at the entry i of the weight
  have e2 := Host.reduce_andi_all _ _ _ _ _ e1 i
  change Ideal.cmp .olt (max (a1 i) (-(a1 i))) (Ideal.ofBits .f32 0x7F800000#32) = 1#1 at e2
  rw [inf_word] at e2
  exact real_of_abs_lt_top _ e2

end Cert.QLinear.Finite

end
-- ==== Proof.lean ====
/-
  A linear layer with a row-wise scalar-quantized weight: the kernel program against its reference.

  Both programs compute, on the extended reals, out(p, q) = Σ_k x(p, k) · q(w)(q, k) + b(q), where q(w) is the weight
  quantized row by row: each row divided by its scale n = max(‖row‖₂, ε), multiplied by 60, rounded to the nearest
  integer (ties to even), clipped to −8 … 7 and scaled back by n / 60 (Proof/Spec.lean).

  The kernel program does it in two kernel regions: the first quantizes the weight, 256 whole rows per grid point
  (Proof/Pay0.lean for a block, Proof/Arr0.lean for the whole array); the second multiplies 1024 rows of the input by
  512 rows of the quantized weight per grid point and adds the bias (Proof/Pay1.lean, Proof/Arr1.lean).  Its run with
  the result named is Proof/KRun.lean, and what the result holds as a function of the arguments Proof/KValue.lean.

  The reference computes the same scale and the same quantized entry Q, but uses the weight w + (Q − w), and multiplies
  by its transpose (Proof/RefValue.lean).  For a finite w the sum w + (Q − w) is Q, whatever Q is; that every entry of
  the weight is finite is what the precondition says (Proof/Finite.lean), and it is the only use of the precondition.
  The clipping bounds are the same numbers −8 and 7 on both sides, written as float words in one program and as
  integers converted to floats in the other.

  The three frames are the generated ones (the reference's is its generated run with the result dropped); the
  idealization rewrote nothing, so there is nothing to preserve.
-/
import proofs.«109204_j27015344292269_2_alg».proof.Defs
import proofs.«109204_j27015344292269_2_alg».proof.Proof.Gen.Kernel
import proofs.«109204_j27015344292269_2_alg».proof.Proof.Gen.Kernel.Skeleton
import proofs.«109204_j27015344292269_2_alg».proof.Proof.Gen.Kernel.Launch
import proofs.«109204_j27015344292269_2_alg».proof.Proof.Gen.Kernel.Points
import proofs.«109204_j27015344292269_2_alg».proof.Proof.Gen.Kernel.Frame
import proofs.«109204_j27015344292269_2_alg».proof.Proof.Gen.KernelIdeal
import proofs.«109204_j27015344292269_2_alg».proof.Proof.Gen.KernelIdeal.Skeleton
import proofs.«109204_j27015344292269_2_alg».proof.Proof.Gen.KernelIdeal.Launch
import proofs.«109204_j27015344292269_2_alg».proof.Proof.Gen.KernelIdeal.Points
import proofs.«109204_j27015344292269_2_alg».proof.Proof.Gen.KernelIdeal.Frame
import proofs.«109204_j27015344292269_2_alg».proof.Proof.Gen.ReferenceIdeal
import proofs.«109204_j27015344292269_2_alg».proof.Proof.Gen.ReferenceIdeal.Run
import proofs.«109204_j27015344292269_2_alg».proof.Proof.Gen.ReferenceIdeal.Read
import proofs.«109204_j27015344292269_2_alg».proof.Proof.Gen.Pre_finite_inputs
import proofs.«109204_j27015344292269_2_alg».proof.Proof.Spec
import proofs.«109204_j27015344292269_2_alg».proof.Proof.KRun
import proofs.«109204_j27015344292269_2_alg».proof.Proof.KValue
import proofs.«109204_j27015344292269_2_alg».proof.Proof.RefValue
import proofs.«109204_j27015344292269_2_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with a finite weight, both programs end with the layer's output of the
    arguments in their result buffers. -/
theorem algebraic : Cert.algebraic_KernelIdeal_ReferenceIdeal := by
  intro m ρ m' ρ' hpre hagree
  refine ⟨fun c => Cert.QLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.QLinear.KValue.result_eq m ρ c), (h c).2⟩)
      (Cert.QLinear.KRun.run_value (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v19_eq _ _ _).trans ?_)
    rw [(hagree c).1, (hagree c).2.1, (hagree c).2.2]
    exact Cert.QLinear.Ref.ref_eq _ _ _ (Cert.QLinear.Finite.weight_real _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
